-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S512x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S2048x4096 : Shape := ⟨2, ![2048, 4096]⟩
abbrev S2048x1 : Shape := ⟨2, ![2048, 1]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8x2048x4096 .f32) (main_arg1 : IVec S2048x4096 32) (main_arg2 : FVec F S2048x1 .f32) (main_arg3 : IVec S2048x4096 32) (main_arg4 : FVec F S2048x1 .f32) (main_arg5 : IVec S4096 32) (main_arg6 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S2048x1 .f32 := Host.absf main_arg2
  let main_cst_0 : FVec F S_ .f32 := constant S_ .f32 0x7F800000#32
  let main_v5 : FVec F S2048x1 .f32 := broadcastInDim S2048x1 ![] bcast_S_S2048x1 main_cst_0
  let main_v6 : IVec S2048x1 1 := cmpf .olt main_v4 main_v5
  let main_c_1 : IVec S_ 1 := constantI S_ 1 1#1
  let main_v7 : IVec S_ 1 := (fun x v => Host.reduce IntOp.andi x v reducesTo_S2048x1_S_d0_1 h_S_) main_v6 main_c_1
  let main_v8 : IVec S_ 1 := andi main_v3 main_v7
  let main_v9 : FVec F S2048x1 .f32 := Host.absf main_arg4
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S4096 .f32 := Host.absf main_arg6
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8x2048x4096 : Shape := ⟨3, ![8, 2048, 4096]⟩
abbrev S2048x4096 : Shape := ⟨2, ![2048, 4096]⟩
abbrev S2048x1 : Shape := ⟨2, ![2048, 1]⟩
abbrev S4096 : Shape := ⟨1, ![4096]⟩
abbrev S4096x4096 : Shape := ⟨2, ![4096, 4096]⟩
abbrev S_ : Shape := ⟨0, ![]⟩
abbrev S4096x1 : Shape := ⟨2, ![4096, 1]⟩
abbrev S16384x4096 : Shape := ⟨2, ![16384, 4096]⟩
abbrev S1x4096 : Shape := ⟨2, ![1, 4096]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 28
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S2048x4096, .i32⟩
  | .hbm, ⟨2, _⟩ => ⟨S2048x1, .f32⟩
  | .hbm, ⟨3, _⟩ => ⟨S2048x4096, .i32⟩
  | .hbm, ⟨4, _⟩ => ⟨S2048x1, .f32⟩
  | .hbm, ⟨5, _⟩ => ⟨S4096, .i32⟩
  | .hbm, ⟨6, _⟩ => ⟨S4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S4096x4096, .f32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4096x4096, .f32⟩
  | .hbm, ⟨23, _⟩ => ⟨S4096x4096, .bf16⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S8x2048x4096, .f32⟩
  | .local _ .vmem, ⟨0, _⟩ => ⟨S512x4096, .f32⟩
  | .local _ .vmem, ⟨1, _⟩ => ⟨S512x4096, .f32⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S2048x1_S2048x4096_0_1 : S2048x1.BroadcastsInDim S2048x4096 (![0, 1] : Fin 2 → Fin S2048x4096.rank)
  concatenates_S2048x4096_S2048x4096_S4096x4096_d0 : Shape.Concatenates [S2048x4096, S2048x4096] S4096x4096 0
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  shapeCasts_S8x2048x4096_S16384x4096 : S8x2048x4096.ShapeCasts S16384x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S16384x4096_S8x2048x4096 : S16384x4096.ShapeCasts S8x2048x4096
  gather_S4096x4096_S4096x1_S4096x4096_1_0_n_n_0_1_14096_wf : GatherDims.WF S4096x4096 S4096x1 S4096x4096 [1] [0] [] [0] [] 1 ![1, 4096]
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x4096.size a
  hwx0_3 : ∀ i : grid0.Coords, EltTy.bits .f32 = 32 ∨ (Rect.block (s := S16384x4096) S512x1024.size (cc0_transform_3 i) (hinb0_3 i)).WholeWords (EltTy.packing .f32)

variable [Facts₀]

def gather_S4096x4096_S4096x1_S4096x4096_1_0_n_n_0_1_14096 : GatherDims S4096x4096 S4096x1 S4096x4096 where
  offsetDims := [1]
  collapsedSliceDims := [0]
  operandBatchingDims := []
  startIndicesBatchingDims := []
  startIndexMap := [0]
  indexVectorDim := 1
  sliceSizes := ![1, 4096]
  wf := gather_S4096x4096_S4096x1_S4096x4096_1_0_n_n_0_1_14096_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v15) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S2048x4096 : Shape := ⟨2, ![2048, 4096]⟩
abbrev S2048x1 : Shape := ⟨2, ![2048, 1]⟩
abbrev S4096 : Shape := ⟨1, ![4096]⟩
abbrev S8x2048x2048 : Shape := ⟨3, ![8, 2048, 2048]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S2048x4096, .i32⟩
  | .hbm, ⟨2, _⟩ => ⟨S2048x1, .f32⟩
  | .hbm, ⟨3, _⟩ => ⟨S2048x4096, .i32⟩
  | .hbm, ⟨4, _⟩ => ⟨S2048x1, .f32⟩
  | .hbm, ⟨5, _⟩ => ⟨S4096, .i32⟩
  | .hbm, ⟨6, _⟩ => ⟨S4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S8x2048x2048, .f32⟩
  | .hbm, ⟨14, _⟩ => ⟨S8x2048x2048, .f32⟩
  | .hbm, ⟨15, _⟩ => ⟨S8x2048x4096, .f32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S8x2048x4096, .f32⟩
  | .hbm, ⟨25, _⟩ => ⟨S1x1x4096, .f32⟩
  | .hbm, ⟨26, _⟩ => ⟨S8x2048x4096, .f32⟩
  | .hbm, ⟨27, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S2048x1_S2048x4096_0_1 : S2048x1.BroadcastsInDim S2048x4096 (![0, 1] : Fin 2 → Fin S2048x4096.rank)
  concatenates_S8x2048x2048_S8x2048x2048_S8x2048x4096_d2 : Shape.Concatenates [S8x2048x2048, S8x2048x2048] S8x2048x4096 2
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S2048x4096_S8x2048x2048_2_1_01_0_n_n_wf : DotDims.WF S8x2048x4096 S2048x4096 S8x2048x2048 [2] [1] [0, 1] [0] [] []
  gather_S8x2048x4096_S4096x1_S8x2048x4096_01_2_n_n_2_1_820481_wf : GatherDims.WF S8x2048x4096 S4096x1 S8x2048x4096 [0, 1] [2] [] [2] [] 1 ![8, 2048, 1]

variable [Facts₀]

def dot_S8x2048x4096_S2048x4096_S8x2048x2048_2_1_01_0_n_n : DotDims S8x2048x4096 S2048x4096 S8x2048x2048 where
  lhsContracting := [2]
  rhsContracting := [1]
  lhsNonContracting := [0, 1]
  rhsNonContracting := [0]
  lhsBatch := []
  rhsBatch := []
  wf := dot_S8x2048x4096_S2048x4096_S8x2048x2048_2_1_01_0_n_n_wf
def gather_S8x2048x4096_S4096x1_S8x2048x4096_01_2_n_n_2_1_820481 : GatherDims S8x2048x4096 S4096x1 S8x2048x4096 where
  offsetDims := [0, 1]
  collapsedSliceDims := [2]
  operandBatchingDims := []
  startIndicesBatchingDims := []
  startIndexMap := [2]
  indexVectorDim := 1
  sliceSizes := ![8, 2048, 1]
  wf := gather_S8x2048x4096_S4096x1_S8x2048x4096_01_2_n_n_2_1_820481_wf

class Facts : Prop extends Facts₀ where

variable [Facts]
-- ==== Proof.LibDotNT.lean ====
/-
  A matrix product that contracts the LAST axis of both operands, [M,K] × [N,K] → [M,N] (the right operand used
  transposed: q·kᵀ, x·Wᵀ), accumulated into the zero matrix and read at (i, j) over the extended reals:
  the sum over k of l(i,k) · r(j,k).
-/
import Idealize.ShloMosaic.PureOps.Ideal.Laws
import Idealize.ShloMosaic.Lib.ValueIdx

namespace Idealize.ShloMosaic.ValueIdx

open Idealize.ShloMosaic

/-- A `tpu.matmul` with dimension numbers ⟨[1],[1],[0],[0],[],[]⟩ into the zero accumulator, at `(i, j)`, is
    `∑ k, l (i, k) * r (j, k)`. The record is any with those dimension numbers (`hr`, `hs`: its contraction shape has one
    axis of extent `K`; for a printed record both are `rfl`). -/
theorem matmul_nt_zero_apply {M N K : ℕ} {φ₁ φ₂ : FTy}
    (D : DotDims (⟨2, ![M, K]⟩ : Shape) ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (hr : D.contr.rank = 1) (hs : D.contr.size ⟨0, by omega⟩ = K)
    (prec : Option ContractPrecision)
    (l : FVec Ideal (⟨2, ![M, K]⟩ : Shape) φ₁) (r : FVec Ideal (⟨2, ![N, K]⟩ : Shape) φ₂) (i : Fin M) (j : Fin N) :
    FloatOps.matmul D prec l r (constant (⟨2, ![M, N]⟩ : Shape) .f32 0x00000000#32) (ix2 i j)
      = ∑ k : Fin K, l (ix2 i k) * r (ix2 j k) := by
  rw [Ideal.matmul_constant_zero_apply, ← Equiv.sum_comp (contrEquiv1 D K hr hs).symm]
  refine Finset.sum_congr rfl fun k _ => ?_
  have hk := contrEquiv1_symm_val D K hr hs k
  have key : ∀ (p : ℕ) (hp : p < (⟨2, ![M, N]⟩ : Shape).rank) (q : Fin 2), p = q.val → ((ix2 i j) ⟨p, hp⟩).val = ((ix2 i j) q).val :=
    fun p hp q h => by subst h; rfl
  have el : D.lhsIdx (ix2 i j) ((contrEquiv1 D K hr hs).symm k) = ix2 i k := funext fun a => Fin.ext (by
    match a with
    | ⟨0, _⟩ =>
      unfold DotDims.lhsIdx
      rw [dif_neg (by rw [hlb]; exact List.not_mem_nil), dif_pos (by rw [hln]; exact List.mem_singleton.mpr rfl)]
      simp only [Fin.val_cast]
      exact key _ _ 0 (by simp [hlb, hln])
    | ⟨1, _⟩ => exact (D.lhsIdx_val_of_single hlc _ _).trans hk)
  have er : D.rhsIdx (ix2 i j) ((contrEquiv1 D K hr hs).symm k) = ix2 j k := funext fun a => Fin.ext (by
    match a with
    | ⟨0, _⟩ =>
      unfold DotDims.rhsIdx
      rw [dif_neg (by rw [hrb]; exact List.not_mem_nil), dif_pos (by rw [hrn]; exact List.mem_singleton.mpr rfl)]
      simp only [Fin.val_cast]
      exact key _ _ 1 (by simp [hlb, hln, hrn])
    | ⟨1, _⟩ => exact (D.rhsIdx_val_of_single hrc _ _).trans hk)
  rw [el, er]

end Idealize.ShloMosaic.ValueIdx
-- ==== Proof.Payload.lean ====
/-
  What the kernel body stores, entry by entry. For a block x0 of 512 token rows, a block x1 of 1024 rows of the final
  weight table and a block x2 of the bias row, entry (p, q) of the stored tile is

      Σ_k x0[p, k] · x1[q, k]  +  Σ_k (x0[p, k] − x0[p, k]) · x1[q, k]  +  x2[0, q]:

  the body splits each token entry into its rounding to the narrower format and the remainder, multiplies both against
  the weight block and adds the two products; with exact arithmetic the rounding is the identity and the remainder is
  the entry minus itself.
-/
import proofs.«122464_j56487409877117_2_alg».proof.Proof.Gen.KernelIdeal.Skeleton
import proofs.«122464_j56487409877117_2_alg».proof.Proof.LibDotNT
import Idealize.ShloMosaic.Lib.ValueLayout
import Idealize.ShloMosaic.Lib.Pipeline.Value

noncomputable section

namespace Cert.KernelIdeal.Pay

open Idealize.ShloMosaic Idealize.ShloMosaic.ValueIdx
open Cert.KernelIdeal Cert.KernelIdeal.Gen

/-- The stored tile at `(p, q)`. -/
theorem pay_apply (x0 : FVec Ideal S512x4096 .f32) (x1 : FVec Ideal S1024x4096 .bf16) (x2 : FVec Ideal S1x1024 .f32)
    (p : Fin 512) (q : Fin 1024) :
    k0_pay1 (F := Ideal) x0 x1 x2 (ix2 p q)
      = (∑ k : Fin 4096, x0 (ix2 p k) * x1 (ix2 q k)) + (∑ k : Fin 4096, (x0 (ix2 p k) - x0 (ix2 p k)) * x1 (ix2 q k))
        + x2 (ix2 (0 : Fin 1) q) := by
  unfold k0_pay1
  dsimp only [Idealize.ShloMosaic.matmul]
  rw [addf_apply, addf_apply,
    matmul_nt_zero_apply dot_S512x4096_S1024x4096_S512x1024_1_1_0_0_n_n rfl rfl rfl rfl rfl rfl rfl rfl,
    matmul_nt_zero_apply dot_S512x4096_S1024x4096_S512x1024_1_1_0_0_n_n rfl rfl rfl rfl rfl rfl rfl rfl,
    broadcastTo_1b_ab_apply]
  simp only [shapeCast_self, truncf_apply, subf_apply]

end Cert.KernelIdeal.Pay

end
-- ==== Proof.LibGatherRows.lean ====
/-
  Taking rows of a table by an index column, read at an entry. The operand is a table [N, C] (or a vector [N]), the
  start indices a column [E, 1], and the dimension numbers are those of `table[idx]`: the row axis collapsed and named by
  the one start-index component, the column axis (if any) the one offset axis. Entry (e, c) of the result is the
  table's entry (r, c) with r the start index idx[e, 0] read as a signed integer and clamped into [0, N - 1]; for a
  vector, entry e is the vector's entry r. The row r is the SAME function of idx and e in both, so taking rows
  commutes with any operation that acts row by row. Stated for any record with those dimension numbers.
-/
import Idealize.ShloMosaic.Lib.ValueIdx
import Idealize.ShloMosaic.PureOps.ShapeOps

namespace Cert.LibGatherRows

open Idealize.ShloMosaic Idealize.ShloMosaic.ValueIdx

/-- The row that start index `idx[e, 0]` names in a table of `N` rows: read signed, clamped into `[0, N - 1]`. -/
def row {N E w : Nat} (hN : 0 < N) (idx : IVec ⟨2, ![E, 1]⟩ w) (e : Fin E) : Fin N :=
  ⟨min (idx (ix2 e (0 : Fin 1))).toInt.toNat (N - 1), by omega⟩

/-- Rows of a table: result entry `(e, c)` reads the operand at `(row idx e, c)`. -/
theorem rows_operandIdx {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (row hN idx e) c := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = _
    rw [GatherDims.batchCoord_eq_zero _ _ _ List.not_mem_nil]
    unfold GatherDims.start
    rw [dif_neg (show ¬ ((1 : Fin 2) ∈ ([0] : List (Fin 2))) by decide)]
    simp only [Nat.add_zero, Nat.zero_add]
    unfold GatherDims.offCoord
    rw [dif_pos ((GatherDims.mem_sKept _ _).mpr ⟨(show ¬ ((1 : Fin 2) ∈ ([0] : List (Fin 2))) by decide), List.not_mem_nil⟩)]
    rfl

/-- Entries of a vector: result entry `e` reads the operand at `row idx e`. -/
theorem elems_operandIdx {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (row hN idx e) := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl

/-- The table's rows taken, at entry `(e, c)`. -/
theorem gather_rows_apply {α : Type} {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (c : Fin C) :
    Host.gather d x idx (ix2 e c) = x (ix2 (row hN idx e) c) := by
  unfold Host.gather
  rw [rows_operandIdx hN d h1 h2 h3 h4 h5 h6 h7 idx e c]

/-- The vector's entries taken, at entry `e`. -/
theorem gather_elems_apply {α : Type} {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (row hN idx e)) := by
  unfold Host.gather
  rw [elems_operandIdx hN d h1 h2 h3 h4 h5 h6 h7 idx e]

end Cert.LibGatherRows
-- ==== Proof.Spec.lean ====
/-
  The specification. For tokens x[b, s, ·] of length 4096, two weight tables w8, w4 of 2048 rows each, an index column
  idx and a bias, the result at (b, s, c) is

      out(b, s, c) = Σ_k x[b, s, k] · W[r(c), k] + bias[c],

  where W is w8 stacked on w4 (row o of W is row o of w8 for o < 2048 and row o − 2048 of w4 otherwise) and r(c) is
  the row the index idx[c, 0] names: read signed and clamped into [0, 4095]. Whether one permutes the rows of W before
  the product or the columns of x·Wᵀ after it, the entry (b, s, c) is this same sum: the position r(c) is computed
  from idx alone.

  Two small laws. On the extended reals a − a = 0 for a real a (not for ±∞), so a second product whose left factor is
  the difference of a real row with itself contributes Σ_k 0 · w = 0 whatever w is (0 · ±∞ = 0): `split_row`. And the
  flattened form — rows (b·2048 + s) of x reshaped to [16384, 4096] against rows of the permuted table — is `out`:
  `flat_eq_out`.
-/
import Idealize.ShloMosaic.PureOps.Ideal
import Idealize.ShloMosaic.Lib.ValueIdx
import proofs.«122464_j56487409877117_2_alg».proof.Proof.LibGatherRows

noncomputable section

namespace Cert.Spec

open Idealize.ShloMosaic Idealize.ShloMosaic.ValueIdx Cert.LibGatherRows

abbrev SX : Shape := ⟨3, ![8, 2048, 4096]⟩
abbrev SW : Shape := ⟨2, ![2048, 4096]⟩
abbrev SI : Shape := ⟨2, ![4096, 1]⟩
abbrev SB : Shape := ⟨1, ![4096]⟩
abbrev SXf : Shape := ⟨2, ![16384, 4096]⟩
abbrev SWf : Shape := ⟨2, ![4096, 4096]⟩
abbrev SBf : Shape := ⟨2, ![1, 4096]⟩

theorem pos4096 : 0 < 4096 := by decide

/-- Row `o` of the two weight tables stacked, at column `k`. -/
def stacked (w8 w4 : SW.Idx → EReal) (o k : Fin 4096) : EReal :=
  if h : o.val < 2048 then w8 (ix2 (⟨o.val, h⟩ : Fin 2048) k)
  else w4 (ix2 (⟨o.val - 2048, by have := o.isLt; omega⟩ : Fin 2048) k)

/-- The result at `(b, s, c)`. -/
def out (x : SX.Idx → EReal) (w8 w4 : SW.Idx → EReal) (idx : IVec SI 32) (bias : SB.Idx → EReal)
    (b : Fin 8) (s : Fin 2048) (c : Fin 4096) : EReal :=
  (∑ k : Fin 4096, x (ix3 b s k) * stacked w8 w4 (row pos4096 idx c) k) + bias (ix1 c)

/-- The result array. -/
def G (x : SX.Idx → EReal) (w8 w4 : SW.Idx → EReal) (idx : IVec SI 32) (bias : SB.Idx → EReal) : SX.Idx → EReal :=
  fun i => out x w8 w4 idx bias (i 0) (i 1) (i 2)

/-- The flattened product at `(r, c)`: row `r` of the flattened tokens against row `c` of the final table, plus the
    bias row. -/
def flat (X : SXf.Idx → EReal) (Wf : SWf.Idx → EReal) (Br : SBf.Idx → EReal) (r : Fin 16384) (c : Fin 4096) : EReal :=
  (∑ k : Fin 4096, X (ix2 r k) * Wf (ix2 c k)) + Br (ix2 (0 : Fin 1) c)

/-- The flattened result array. -/
def Gflat (X : SXf.Idx → EReal) (Wf : SWf.Idx → EReal) (Br : SBf.Idx → EReal) : SXf.Idx → EReal :=
  fun j => flat X Wf Br (j 0) (j 1)

/-- A real number minus itself is zero on the extended reals. -/
theorem sub_self_of_real {a : EReal} (h : ∃ r : ℝ, a = (r : EReal)) : a - a = 0 := by
  obtain ⟨r, rfl⟩ := h
  rw [← EReal.coe_sub, sub_self, EReal.coe_zero]

/-- The product with a real row split into the row and its difference with itself is the plain product: the
    second sum's terms are all `0 · w = 0`. -/
theorem split_row {K : ℕ} (xr wr : Fin K → EReal) (hx : ∀ k, ∃ r : ℝ, xr k = (r : EReal)) (bb : EReal) :
    (∑ k : Fin K, xr k * wr k) + (∑ k : Fin K, (xr k - xr k) * wr k) + bb = (∑ k : Fin K, xr k * wr k) + bb := by
  have hz : (∑ k : Fin K, (xr k - xr k) * wr k) = 0 :=
    Finset.sum_eq_zero fun k _ => by rw [sub_self_of_real (hx k), zero_mul]
  rw [hz, add_zero]

/-- The flattened product is `out`: when the flattened tokens' row `b·2048 + s` is the tokens' row `(b, s)`, the
    final table's row `c` is the stacked tables' row `r(c)`, and the bias row is the bias. -/
theorem flat_eq_out (x : SX.Idx → EReal) (w8 w4 : SW.Idx → EReal) (idx : IVec SI 32) (bias : SB.Idx → EReal)
    (X : SXf.Idx → EReal) (Wf : SWf.Idx → EReal) (Br : SBf.Idx → EReal)
    (b : Fin 8) (s : Fin 2048) (c : Fin 4096) (r : Fin 16384)
    (hX : ∀ k : Fin 4096, X (ix2 r k) = x (ix3 b s k))
    (hW : ∀ k : Fin 4096, Wf (ix2 c k) = stacked w8 w4 (row pos4096 idx c) k)
    (hB : Br (ix2 (0 : Fin 1) c) = bias (ix1 c)) :
    flat X Wf Br r c = out x w8 w4 idx bias b s c := by
  unfold flat out
  rw [hB]
  exact congrArg (· + bias (ix1 c)) (Finset.sum_congr rfl fun k _ => by rw [hX k, hW k])

end Cert.Spec

end
-- ==== Proof.Tile.lean ====
/-
  One grid point's tile is a tile of the flattened product. At grid point (ti, tj) the body sees token rows
  ti·512 … ti·512 + 511, final-table rows tj·1024 … tj·1024 + 1023 and the matching stretch of the bias row; entry
  (p, q) of what it stores is the flattened product at (ti·512 + p, tj·1024 + q) as soon as the token entries are real
  numbers (so that the split-off remainder x − x vanishes).
-/
import proofs.«122464_j56487409877117_2_alg».proof.Proof.Payload
import proofs.«122464_j56487409877117_2_alg».proof.Proof.Spec

noncomputable section

namespace Cert.KernelIdeal.Tile

open Idealize.ShloMosaic Idealize.ShloMosaic.ValueIdx
open Cert.KernelIdeal Cert.KernelIdeal.Gen Cert.Spec

/-- The stored tile at `(p, q)` is the flattened product at row `r`, column `cc`, when the three blocks are the
    arrays' rows `r`, `cc` and the bias row's column `cc`. -/
theorem tile_eq (X : SXf.Idx → EReal) (Wf : SWf.Idx → EReal) (Br : SBf.Idx → EReal)
    (x0 : FVec Ideal S512x4096 .f32) (x1 : FVec Ideal S1024x4096 .bf16) (x2 : FVec Ideal S1x1024 .f32)
    (p : Fin 512) (q : Fin 1024) (r : Fin 16384) (cc : Fin 4096)
    (h0 : ∀ k : Fin 4096, x0 (ix2 p k) = X (ix2 r k))
    (h1 : ∀ k : Fin 4096, x1 (ix2 q k) = Wf (ix2 cc k))
    (h2 : x2 (ix2 (0 : Fin 1) q) = Br (ix2 (0 : Fin 1) cc))
    (hfin : ∀ j, ∃ a : ℝ, X j = (a : EReal)) :
    k0_pay1 (F := Ideal) x0 x1 x2 (ix2 p q) = flat X Wf Br r cc := by
  rw [Pay.pay_apply, split_row (fun k => x0 (ix2 p k)) (fun k => x1 (ix2 q k)) (fun k => by rw [h0 k]; exact hfin _)]
  unfold flat
  rw [h2]
  exact congrArg (· + Br (ix2 (0 : Fin 1) cc)) (Finset.sum_congr rfl fun k _ => by rw [h0 k, h1 k])

end Cert.KernelIdeal.Tile

end
-- ==== Proof.Entry.lean ====
/-
  The arrays the kernel's region reads, entry by entry, and the reshape after it.
  • The tokens [8, 2048, 4096] flattened to [16384, 4096]: row b·2048 + s is the token (b, s).
  • The final weight table: rows of the two dequantised tables stacked, taken at the rows the index column names, then
    narrowed to the 16-bit format (the identity on exact values): row c is row r(c) of the stacked tables.
  • The bias as a [1, 4096] row.
  • The result [16384, 4096] reshaped back to [8, 2048, 4096]: entry (b, s, c) is the flat entry (b·2048 + s, c).
  Together: the reshaped flat product of those three arrays is the specification.
-/
import proofs.«122464_j56487409877117_2_alg».proof.Proof.Gen.KernelIdeal
import proofs.«122464_j56487409877117_2_alg».proof.Proof.Spec
import proofs.«122464_j56487409877117_2_alg».proof.Proof.LibGatherRows
import Idealize.ShloMosaic.Lib.Pipeline.Value
import Idealize.ShloMosaic.Lib.ValueLayout

noncomputable section

namespace Cert.KernelIdeal.Entry

open Idealize.ShloMosaic Idealize.ShloMosaic.ValueIdx
open Cert.KernelIdeal Cert.KernelIdeal.Facts₀ Cert.Spec Cert.LibGatherRows

/-- The flattened tokens at row `r = b·2048 + s`. -/
theorem tokens_apply (x : FVec Ideal S8x2048x4096 .f32) (b : Fin 8) (s : Fin 2048) (k : Fin 4096) (r : Fin 16384)
    (hr : r.val = b.val * 2048 + s.val) :
    shapeCast S16384x4096 x shapeCasts_S8x2048x4096_S16384x4096 (ix2 r k) = x (ix3 b s k) :=
  shapeCast_apply x _ _ _ (by
    rw [Shape.rowMajor_val_three, Shape.rowMajor_val_two]
    show (b.val * 2048 + s.val) * 4096 + k.val = r.val * 4096 + k.val
    rw [hr])

/-- The flat result reshaped back, at `(b, s, c)`. -/
theorem unflatten_apply (g : FVec Ideal S16384x4096 .f32) (b : Fin 8) (s : Fin 2048) (c : Fin 4096) (r : Fin 16384)
    (hr : r.val = b.val * 2048 + s.val) :
    shapeCast S8x2048x4096 g shapeCasts_S16384x4096_S8x2048x4096 (ix3 b s c) = g (ix2 r c) :=
  shapeCast_apply g _ _ _ (by
    rw [Shape.rowMajor_val_three, Shape.rowMajor_val_two]
    show r.val * 4096 + c.val = (b.val * 2048 + s.val) * 4096 + c.val
    rw [hr])

/-- The bias row at column `c`. -/
theorem bias_row_apply (bias : FVec Ideal S4096 .f32) (c : Fin 4096) :
    shapeCast S1x4096 bias shapeCasts_S4096_S1x4096 (ix2 (0 : Fin 1) c) = bias (ix1 c) :=
  shapeCast_a_1a_apply bias _ 0 c

/-- The final weight table: the stacked tables' rows taken at the index column, narrowed. -/
def finalTable (w8 w4 : FVec Ideal S2048x4096 .f32) (idx : IVec S4096x1 32) : FVec Ideal S4096x4096 .bf16 :=
  truncf .bf16 (Host.gather gather_S4096x4096_S4096x1_S4096x4096_1_0_n_n_0_1_14096
    (concatenate S4096x4096 0 [⟨S2048x4096, w8⟩, ⟨S2048x4096, w4⟩] concatenates_S2048x4096_S2048x4096_S4096x4096_d0) idx)
    bitsLt_bf16_f32

/-- Row `c` of the final table is row `r(c)` of the stacked tables. -/
theorem finalTable_apply (w8 w4 : FVec Ideal S2048x4096 .f32) (idx : IVec S4096x1 32) (c k : Fin 4096) :
    finalTable w8 w4 idx (ix2 c k) = stacked w8 w4 (row pos4096 idx c) k := by
  unfold finalTable
  rw [truncf_apply, gather_rows_apply pos4096 gather_S4096x4096_S4096x1_S4096x4096_1_0_n_n_0_1_14096 rfl rfl rfl rfl rfl rfl rfl]
  unfold stacked
  by_cases h : (row pos4096 idx c).val < 2048
  · rw [dif_pos h, concatenate_pair_apply_left (s₁ := S2048x4096) (s₂ := S2048x4096) (0 : Fin 2) _ _ _
      (ix2 (row pos4096 idx c) k) rfl (ix2 (⟨(row pos4096 idx c).val, h⟩ : Fin 2048) k)
      (fun d => by match d with | ⟨0, _⟩ => rfl | ⟨1, _⟩ => rfl)]
  · have h' : 2048 ≤ (row pos4096 idx c).val := Nat.le_of_not_lt h
    have ho : (row pos4096 idx c).val < 4096 := (row pos4096 idx c).isLt
    rw [dif_neg h, concatenate_pair_apply_right (s₁ := S2048x4096) (s₂ := S2048x4096) (0 : Fin 2) _ _ _
      (ix2 (row pos4096 idx c) k) rfl rfl (ix2 (⟨(row pos4096 idx c).val - 2048, by omega⟩ : Fin 2048) k)
      (fun d hd => by
        match d with
        | ⟨0, _⟩ => exact absurd rfl hd
        | ⟨1, _⟩ => rfl)
      (by show (row pos4096 idx c).val - 2048 + 2048 = (row pos4096 idx c).val; omega)]

/-- The reshaped flat product of the three entry arrays is the specification. -/
theorem kernel_eq (x : FVec Ideal S8x2048x4096 .f32) (w8 w4 : FVec Ideal S2048x4096 .f32) (idx : IVec S4096x1 32)
    (bias : FVec Ideal S4096 .f32) :
    shapeCast S8x2048x4096
        (Gflat (shapeCast S16384x4096 x shapeCasts_S8x2048x4096_S16384x4096) (finalTable w8 w4 idx)
          (shapeCast S1x4096 bias shapeCasts_S4096_S1x4096))
        shapeCasts_S16384x4096_S8x2048x4096
      = G x w8 w4 idx bias := by
  funext i
  obtain ⟨b, s, c, rfl⟩ : ∃ (b : Fin 8) (s : Fin 2048) (c : Fin 4096), i = ix3 b s c := ⟨i 0, i 1, i 2, eq_ix3 i⟩
  have hb : b.val < 8 := b.isLt
  have hs : s.val < 2048 := s.isLt
  rw [unflatten_apply _ b s c (⟨b.val * 2048 + s.val, by omega⟩ : Fin 16384) rfl]
  show flat _ _ _ (⟨b.val * 2048 + s.val, by omega⟩ : Fin 16384) c = out x w8 w4 idx bias b s c
  exact flat_eq_out x w8 w4 idx bias _ _ _ b s c _ (fun k => tokens_apply x b s k _ rfl)
    (fun k => finalTable_apply w8 w4 idx c k) (bias_row_apply bias c)

end Cert.KernelIdeal.Entry

end
-- ==== Proof.KernelValue.lean ====
/-
  What the kernel's program leaves in its result. The grid is 32 × 4: point (ti, tj) reads token rows
  ti·512 …, final-table rows tj·1024 … and the bias row's columns tj·1024 …, and writes back the 512 × 1024 tile at
  (ti, tj) of the [16384, 4096] product. Every tile is a tile of ONE function — the flat product of the arrays the
  region reads — and the 128 tiles cover the array, so after the region the array is that function; the reshape after
  the region turns it into the [8, 2048, 4096] result, which is the specification.
-/
import proofs.«122464_j56487409877117_2_alg».proof.Proof.Gen.KernelIdeal.Frame
import proofs.«122464_j56487409877117_2_alg».proof.Proof.Tile
import proofs.«122464_j56487409877117_2_alg».proof.Proof.Entry
import Idealize.ShloMosaic.Lib.StableHlo.Run
import Idealize.ShloMosaic.Lib.Pipeline.Value

set_option maxRecDepth 16384

noncomputable section

namespace Cert.KernelIdeal.KValue

open Idealize.ShloMosaic Idealize.ShloMosaic.TcCoe Idealize.ShloMosaic.ValueIdx Idealize.ShloMosaic.StableHlo
open Idealize.SL.Sem
open Idealize.ShloMosaic.Pipeline (Dat)
open Cert.KernelIdeal Cert.KernelIdeal.Gen Cert.Spec Cert.KernelIdeal.Entry

variable (m : (ℓ : Loc nD τ sig) → Buf (Elt Ideal) ℓ) (ρ : Dev nD → PrngReg)

/-! ## The arrays the region reads, as functions of the arguments -/

/-- The first dequantised table: the 8-bit-format integers times their per-row scales. -/
def w8 (c : Dev nD) : FVec Ideal S2048x4096 .f32 :=
  mulf (sitofp .f32 (m ((c : Thread nD τ).loc main_arg1)))
    (broadcastInDim S2048x4096 ![0, 1] Facts₀.bcast_S2048x1_S2048x4096_0_1 (m ((c : Thread nD τ).loc main_arg2)))

/-- The second dequantised table. -/
def w4 (c : Dev nD) : FVec Ideal S2048x4096 .f32 :=
  mulf (sitofp .f32 (m ((c : Thread nD τ).loc main_arg3)))
    (broadcastInDim S2048x4096 ![0, 1] Facts₀.bcast_S2048x1_S2048x4096_0_1 (m ((c : Thread nD τ).loc main_arg4)))

/-- The index column: a negative index moved up by 4096, then laid out as a column. -/
def idxc (c : Dev nD) : IVec S4096x1 32 :=
  broadcastInDim S4096x1 ![0] Facts₀.bcast_S4096_S4096x1_0
    (select (cmpi .slt (m ((c : Thread nD τ).loc main_arg5)) (broadcastInDim S4096 ![] Facts₀.bcast_S_S4096 (constantI S_ 32 0#32)))
      (addi (m ((c : Thread nD τ).loc main_arg5)) (broadcastInDim S4096 ![] Facts₀.bcast_S_S4096 (constantI S_ 32 4096#32)))
      (m ((c : Thread nD τ).loc main_arg5)))

/-- The region finds the tokens flattened, -/
theorem V15_eq (c : Dev nD) : (V m c main_v15 : S16384x4096.Idx → EReal)
    = shapeCast S16384x4096 (m ((c : Thread nD τ).loc main_arg0)) Facts₀.shapeCasts_S8x2048x4096_S16384x4096 := by
  show StableHlo.after (hostOps0 (F := Ideal)) (fun b => m (c, b)) (Proc.devRef .tc main_v15) = _
  after_results; rfl

/-- the final weight table, -/
theorem V14_eq (c : Dev nD) : (V m c main_v14 : S4096x4096.Idx → EReal) = finalTable (w8 m c) (w4 m c) (idxc m c) := by
  show StableHlo.after (hostOps0 (F := Ideal)) (fun b => m (c, b)) (Proc.devRef .tc main_v14) = _
  after_results; rfl

/-- and the bias as a row. -/
theorem V16_eq (c : Dev nD) : (V m c main_v16 : S1x4096.Idx → EReal)
    = shapeCast S1x4096 (m ((c : Thread nD τ).loc main_arg6)) Facts₀.shapeCasts_S4096_S1x4096 := by
  show StableHlo.after (hostOps0 (F := Ideal)) (fun b => m (c, b)) (Proc.devRef .tc main_v16) = _
  after_results; rfl

/-- The flat product of the arrays the region reads. -/
def GK (c : Dev nD) : S16384x4096.Idx → EReal :=
  Gflat (V m c main_v15 : S16384x4096.Idx → EReal) (V m c main_v14 : S4096x4096.Idx → EReal) (V m c main_v16 : S1x4096.Idx → EReal)

/-- Real tokens stay real when flattened. -/
theorem tokens_real (c : Dev nD) (hx : ∀ i, ∃ a : ℝ, m ((c : Thread nD τ).loc main_arg0) i = (a : EReal))
    (j : S16384x4096.Idx) : ∃ a : ℝ, (V m c main_v15 : S16384x4096.Idx → EReal) j = (a : EReal) := by
  rw [V15_eq]; exact hx _

/-! ## The tiles -/

theorem hz : (![0, 0] : Fin 2 → Nat) = fun _ => 0 := funext fun a => by fin_cases a <;> rfl

/-- The block indices over the grid: the token window follows the output's row block, the weight and bias windows its
    column block. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 31 ∧ win0_3.index t (1 : Fin 2) ≤ 3 :=
  (by decide +kernel : ∀ t : Fin grid0.N, _)

/-- Every block position is some point's. -/
theorem idx_onto : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-- What point `t` writes back is its tile of the flat product. -/
theorem flushed_eq (c : Dev nD) (hx : ∀ i, ∃ a : ℝ, m ((c : Thread nD τ).loc main_arg0) i = (a : EReal)) (t : Fin cfg0.N) :
    (dats m 0 c).flushed 3 t = ((cfg0.win 3).blk t).view.read (Elt Ideal) (GK m c) := by
  show (cfg0.win 3).cut (grid0.coords t) ((dats m 0 c).after 3 t) = _
  rw [after0_3]
  unfold out0_3
  rw [View.canon_unit_zero hz]
  simp only [View.ld_unit_zero (S := S512x4096) hz, View.ld_unit_zero (S := S1024x4096) hz, View.ld_unit_zero (S := S1x1024) hz]
  obtain ⟨e0, e1, e2, e3, e4, e5, e6, e7⟩ := idx_facts t
  show (fun j : S512x1024.Idx => k0_pay1 (F := Ideal) (iblk m c 0 t) (iblk m c 1 t) (iblk m c 2 t) j)
    = fun j : S512x1024.Idx => GK m c (((cfg0.win 3).blk t).view.emb j)
  funext j
  obtain ⟨p, q, rfl⟩ : ∃ (p : Fin 512) (q : Fin 1024), j = ix2 p q := ⟨j 0, j 1, eq_ix2 j⟩
  have hp : p.val < 512 := p.isLt
  have hq : q.val < 1024 := q.isLt
  refine (Tile.tile_eq (V m c main_v15 : S16384x4096.Idx → EReal) (V m c main_v14 : S4096x4096.Idx → EReal)
    (V m c main_v16 : S1x4096.Idx → EReal) (iblk m c 0 t) (iblk m c 1 t) (iblk m c 2 t) p q
    (⟨win0_3.index t (0 : Fin 2) * 512 + p.val, by omega⟩ : Fin 16384)
    (⟨win0_3.index t (1 : Fin 2) * 1024 + q.val, by omega⟩ : Fin 4096) ?_ ?_ ?_ (tokens_real m c hx)).trans ?_
  · intro k
    show (V m c main_v15 : S16384x4096.Idx → EReal) (((cfg0.win 0).blk t).view.emb (ix2 p k)) = _
    refine congrArg (V m c main_v15 : S16384x4096.Idx → EReal) (funext fun a => Fin.ext ?_)
    match a with
    | ⟨0, _⟩ => show win0_0.index t (0 : Fin 2) * 512 + 1 * p.val = win0_3.index t (0 : Fin 2) * 512 + p.val; omega
    | ⟨1, _⟩ => show win0_0.index t (1 : Fin 2) * 4096 + 1 * k.val = k.val; omega
  · intro k
    show (V m c main_v14 : S4096x4096.Idx → EReal) (((cfg0.win 1).blk t).view.emb (ix2 q k)) = _
    refine congrArg (V m c main_v14 : S4096x4096.Idx → EReal) (funext fun a => Fin.ext ?_)
    match a with
    | ⟨0, _⟩ => show win0_1.index t (0 : Fin 2) * 1024 + 1 * q.val = win0_3.index t (1 : Fin 2) * 1024 + q.val; omega
    | ⟨1, _⟩ => show win0_1.index t (1 : Fin 2) * 4096 + 1 * k.val = k.val; omega
  · show (V m c main_v16 : S1x4096.Idx → EReal) (((cfg0.win 2).blk t).view.emb (ix2 (0 : Fin 1) q)) = _
    refine congrArg (V m c main_v16 : S1x4096.Idx → EReal) (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + q.val; omega
  · show flat _ _ _ _ _ = flat _ _ _ ((((cfg0.win 3).blk t).view.emb (ix2 p q)) 0) ((((cfg0.win 3).blk t).view.emb (ix2 p q)) 1)
    congr 1
    · exact Fin.ext (by show win0_3.index t (0 : Fin 2) * 512 + p.val = win0_3.index t (0 : Fin 2) * 512 + 1 * p.val; omega)
    · exact Fin.ext (by show win0_3.index t (1 : Fin 2) * 1024 + q.val = win0_3.index t (1 : Fin 2) * 1024 + 1 * q.val; omega)

/-- An index of the array is in point `t`'s block iff each coordinate is in the block's range on its axis. -/
theorem mem_blk (t : Fin cfg0.N) (i : S16384x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v17).slice (win0_3.rect t)).set ↔ _
  rw [View.set_slice_whole, Rect.mem_set_unit]
  exact Iff.rfl

/-- The tiles cover the array: entry `(r, cc)` is in the tile of point `(r / 512, cc / 1024)`. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The array after the region is the flat product. -/
theorem final (c : Dev nD) (hx : ∀ i, ∃ a : ℝ, m ((c : Thread nD τ).loc main_arg0) i = (a : EReal)) :
    (dats m 0 c).arrAt 3 cfg0.N = GK m c :=
  (dats m 0 c).arrAt_eq_of_cover 3 (GK m c) (fun t _ => flushed_eq m c hx t) cover

/-! ## The reshape after the region, and the run -/

/-- The result buffer after the reshape that follows the region. -/
theorem tail_eq (c : Dev nD) (hx : ∀ i, ∃ a : ℝ, m ((c : Thread nD τ).loc main_arg0) i = (a : EReal)) :
    (Pipeline.afterTail₀ cfgs (dats m) 0 (V0 m) [hostOps1] c main_v18 : S8x2048x4096.Idx → EReal)
      = G (m ((c : Thread nD τ).loc main_arg0)) (w8 m c) (w4 m c) (idxc m c) (m ((c : Thread nD τ).loc main_arg6)) := by
  unfold Pipeline.afterTail₀
  show StableHlo.after (hostOps1 (F := Ideal)) _ (Proc.devRef .tc main_v18) = _
  after_results
  have hA : (Pipeline.withArrays (cfgs 0).spec c (V0 m c) (fun w => (dats m 0 c).arrAt w (cfgs 0).N)
      (Proc.devRef .tc main_v17) : S16384x4096.Idx → EReal) = GK m c :=
    (Pipeline.withArrays_arr spec0 launch0.win.arr_inj c _ _ 3).trans (final m c hx)
  show shapeCast S8x2048x4096 (Pipeline.withArrays (cfgs 0).spec c (V0 m c) (fun w => (dats m 0 c).arrAt w (cfgs 0).N)
      (Proc.devRef .tc main_v17) : S16384x4096.Idx → EReal) Facts₀.shapeCasts_S16384x4096_S8x2048x4096 = _
  rw [hA]
  unfold GK
  rw [V15_eq, V14_eq, V16_eq]
  exact kernel_eq _ _ _ _ _

/-- The run: under real tokens every weakly fair execution of the kernel's program ends with the result buffer at the
    specification of the arguments and the arguments unchanged. -/
theorem run (hx : ∀ (c : Dev nD) i, ∃ a : ℝ, m ((c : Thread nD τ).loc main_arg0) i = (a : EReal)) :
    θ_run defs (onTc (τ := τ) (main (F := Ideal))) ⟨m, fun _ => 0, ρ⟩ fun r => ∀ c : Dev nD,
      r.2.mem ((c.tc : Thread nD τ).loc main_v18)
          = G (m ((c : Thread nD τ).loc main_arg0)) (w8 m c) (w4 m c) (idxc m c) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v18 (Pipeline.mem_restRefs_of main_v18 (by decide) (by decide))).trans (tail_eq m c (hx c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.LibGatherLast.lean ====
/-
  Taking entries along the LAST axis of a rank-3 table by an index column, read at an entry. The operand is a table
  [A, B, N], the start indices a column [E, 1], and the dimension numbers are those of `table[..., idx]`: the last
  axis collapsed and named by the one start-index component, the two leading axes the offset axes. Entry (a, b, e) of
  the result is the table's entry (a, b, r) with r the start index idx[e, 0] read as a signed integer and clamped into
  [0, N - 1] — the same `row` as for taking rows of a matrix, so that taking entries along the last axis of a product
  and taking rows of its right factor name one and the same position. Stated for any record with those dimension numbers.
-/
import proofs.«122464_j56487409877117_2_alg».proof.Proof.LibGatherRows

namespace Cert.LibGatherLast

open Idealize.ShloMosaic Idealize.ShloMosaic.ValueIdx Cert.LibGatherRows

/-- Entries along the last axis: result entry `(a, b, e)` reads the operand at `(a, b, row idx e)`. -/
theorem last_operandIdx {A B N E w : Nat} (hN : 0 < N) (d : GatherDims ⟨3, ![A, B, N]⟩ ⟨2, ![E, 1]⟩ ⟨3, ![A, B, E]⟩)
    (h1 : d.offsetDims = [0, 1]) (h2 : d.collapsedSliceDims = [2]) (h3 : d.operandBatchingDims = [])
    (h4 : d.startIndicesBatchingDims = []) (h5 : d.startIndexMap = [2]) (h6 : d.indexVectorDim = 1)
    (h7 : d.sliceSizes = ![A, B, 1]) (idx : IVec ⟨2, ![E, 1]⟩ w) (a : Fin A) (b : Fin B) (e : Fin E) :
    d.operandIdx (ix3 a b e) idx = ix3 a b (row hN idx e) := by
  obtain ⟨od, cd, ob, sb, sm, iv, ss, wf⟩ := d
  dsimp only at h1 h2 h3 h4 h5 h6 h7
  subst h1 h2 h3 h4 h5 h6 h7
  funext x
  refine Fin.ext ?_
  match x with
  | ⟨0, _⟩ =>
    show GatherDims.start _ (ix3 a b e) idx 0 + GatherDims.batchCoord _ (ix3 a b e) 0 + GatherDims.offCoord _ (ix3 a b e) 0 = _
    rw [GatherDims.batchCoord_eq_zero _ _ _ List.not_mem_nil]
    unfold GatherDims.start
    rw [dif_neg (show ¬ ((0 : Fin 3) ∈ ([2] : List (Fin 3))) by decide)]
    simp only [Nat.add_zero, Nat.zero_add]
    unfold GatherDims.offCoord
    rw [dif_pos ((GatherDims.mem_sKept _ _).mpr ⟨(show ¬ ((0 : Fin 3) ∈ ([2] : List (Fin 3))) by decide), List.not_mem_nil⟩)]
    rfl
  | ⟨1, _⟩ =>
    show GatherDims.start _ (ix3 a b e) idx 1 + GatherDims.batchCoord _ (ix3 a b e) 1 + GatherDims.offCoord _ (ix3 a b e) 1 = _
    rw [GatherDims.batchCoord_eq_zero _ _ _ List.not_mem_nil]
    unfold GatherDims.start
    rw [dif_neg (show ¬ ((1 : Fin 3) ∈ ([2] : List (Fin 3))) by decide)]
    simp only [Nat.add_zero, Nat.zero_add]
    unfold GatherDims.offCoord
    rw [dif_pos ((GatherDims.mem_sKept _ _).mpr ⟨(show ¬ ((1 : Fin 3) ∈ ([2] : List (Fin 3))) by decide), List.not_mem_nil⟩)]
    rfl
  | ⟨2, _⟩ =>
    show GatherDims.start _ (ix3 a b e) idx 2 + GatherDims.batchCoord _ (ix3 a b e) 2 + GatherDims.offCoord _ (ix3 a b e) 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext y; refine Fin.ext ?_
    match y with
    | ⟨0, _⟩ => rfl
    | ⟨1, _⟩ => rfl

/-- The table's entries along its last axis taken, at entry `(a, b, e)`. -/
theorem gather_last_apply {α : Type} {A B N E w : Nat} (hN : 0 < N) (d : GatherDims ⟨3, ![A, B, N]⟩ ⟨2, ![E, 1]⟩ ⟨3, ![A, B, E]⟩)
    (h1 : d.offsetDims = [0, 1]) (h2 : d.collapsedSliceDims = [2]) (h3 : d.operandBatchingDims = [])
    (h4 : d.startIndicesBatchingDims = []) (h5 : d.startIndexMap = [2]) (h6 : d.indexVectorDim = 1)
    (h7 : d.sliceSizes = ![A, B, 1]) (x : (⟨3, ![A, B, N]⟩ : Shape).Idx → α) (idx : IVec ⟨2, ![E, 1]⟩ w)
    (a : Fin A) (b : Fin B) (e : Fin E) :
    Host.gather d x idx (ix3 a b e) = x (ix3 a b (row hN idx e)) := by
  unfold Host.gather
  rw [last_operandIdx hN d h1 h2 h3 h4 h5 h6 h7 idx a b e]

end Cert.LibGatherLast
-- ==== Proof.RefIsSpec.lean ====
/-
  The reference computes the specification. Its result at (b, s, c) is y[b, s, r(c)] + bias[c], where y is the two
  products x·w8ᵀ and x·w4ᵀ joined along the last axis and r(c) the position the index column names. Position o of the
  joined axis lies in the first product for o < 2048 and in the second, at o − 2048, otherwise; in either case the entry
  is Σ_k x[b, s, k] · (row o of the stacked tables)[k].
-/
import proofs.«122464_j56487409877117_2_alg».proof.Proof.Gen.ReferenceIdeal.Read
import proofs.«122464_j56487409877117_2_alg».proof.Proof.Spec
import proofs.«122464_j56487409877117_2_alg».proof.Proof.LibGatherLast

noncomputable section

namespace Cert.RefSpec

open Idealize.ShloMosaic Idealize.ShloMosaic.ValueIdx
open Cert.ReferenceIdeal Cert.ReferenceIdeal.Read Cert.Spec Cert.LibGatherRows Cert.LibGatherLast

/-- The left operand's index of either product at result position `(b, s, o)`, contraction position `k`. -/
theorem lidx6 (b : Fin 8) (s : Fin 2048) (o : Fin 2048) (k : Fin 4096) : lidx_main_v6 (ix3 b s o) k = ix3 b s k :=
  funext fun a => Fin.ext (by match a with | ⟨0, _⟩ => rfl | ⟨1, _⟩ => rfl | ⟨2, _⟩ => rfl)
theorem ridx6 (b : Fin 8) (s : Fin 2048) (o : Fin 2048) (k : Fin 4096) : ridx_main_v6 (ix3 b s o) k = ix2 o k :=
  funext fun a => Fin.ext (by match a with | ⟨0, _⟩ => rfl | ⟨1, _⟩ => rfl)
theorem lidx7 (b : Fin 8) (s : Fin 2048) (o : Fin 2048) (k : Fin 4096) : lidx_main_v7 (ix3 b s o) k = ix3 b s k :=
  funext fun a => Fin.ext (by match a with | ⟨0, _⟩ => rfl | ⟨1, _⟩ => rfl | ⟨2, _⟩ => rfl)
theorem ridx7 (b : Fin 8) (s : Fin 2048) (o : Fin 2048) (k : Fin 4096) : ridx_main_v7 (ix3 b s o) k = ix2 o k :=
  funext fun a => Fin.ext (by match a with | ⟨0, _⟩ => rfl | ⟨1, _⟩ => rfl)

/-- The bias, broadcast to [1, 1, 4096] and then to the result's shape, at `(b, s, c)`. -/
theorem bias_apply (x6 : (⟨S4096, .f32⟩ : BufTy).Contents (Elt Ideal)) (b : Fin 8) (s : Fin 2048) (c : Fin 4096) :
    val_main_v17 (F := Ideal) x6 (ix3 b s c) = x6 (ix1 c) := by
  rw [val_main_v17_apply, val_main_v16_apply]
  exact congrArg x6 (funext fun a => Fin.ext (by match a with | ⟨0, _⟩ => rfl))

/-- The joined products at `(b, s, o)`: the token's inner product with row `o` of the stacked tables. -/
theorem joined_apply (x0 : (⟨S8x2048x4096, .f32⟩ : BufTy).Contents (Elt Ideal)) (x1 : (⟨S2048x4096, .i32⟩ : BufTy).Contents (Elt Ideal))
    (x2 : (⟨S2048x1, .f32⟩ : BufTy).Contents (Elt Ideal)) (x3 : (⟨S2048x4096, .i32⟩ : BufTy).Contents (Elt Ideal))
    (x4 : (⟨S2048x1, .f32⟩ : BufTy).Contents (Elt Ideal)) (b : Fin 8) (s : Fin 2048) (o : Fin 4096) :
    val_main_v8 (F := Ideal) x0 x1 x2 x3 x4 (ix3 b s o)
      = ∑ k : Fin 4096, x0 (ix3 b s k) * stacked (val_main_v2 (F := Ideal) x1 x2) (val_main_v5 (F := Ideal) x3 x4) o k := by
  unfold val_main_v8
  by_cases h : o.val < 2048
  · rw [concatenate_pair_apply_left (s₁ := S8x2048x2048) (s₂ := S8x2048x2048) (2 : Fin 3) _ _ _ (ix3 b s o) rfl (ix3 b s (⟨o.val, h⟩ : Fin 2048))
      (fun d => by match d with | ⟨0, _⟩ => rfl | ⟨1, _⟩ => rfl | ⟨2, _⟩ => rfl)]
    rw [val_main_v6_apply]
    refine Finset.sum_congr rfl fun k _ => ?_
    unfold stacked
    rw [dif_pos h, lidx6, ridx6]
  · have h' : 2048 ≤ o.val := Nat.le_of_not_lt h
    have ho : o.val < 4096 := o.isLt
    rw [concatenate_pair_apply_right (s₁ := S8x2048x2048) (s₂ := S8x2048x2048) (2 : Fin 3) _ _ _ (ix3 b s o) rfl rfl (ix3 b s (⟨o.val - 2048, by omega⟩ : Fin 2048))
      (fun d hd => by
        match d with
        | ⟨0, _⟩ => rfl
        | ⟨1, _⟩ => rfl
        | ⟨2, _⟩ => exact absurd rfl hd)
      (by show o.val - 2048 + 2048 = o.val; omega)]
    rw [val_main_v7_apply]
    refine Finset.sum_congr rfl fun k _ => ?_
    unfold stacked
    rw [dif_neg h, lidx7, ridx7]

/-- The reference's result array is the specification's, of the two dequantised tables, the wrapped index column and
    the bias. -/
theorem ref_eq (x0 : (⟨S8x2048x4096, .f32⟩ : BufTy).Contents (Elt Ideal)) (x1 : (⟨S2048x4096, .i32⟩ : BufTy).Contents (Elt Ideal))
    (x2 : (⟨S2048x1, .f32⟩ : BufTy).Contents (Elt Ideal)) (x3 : (⟨S2048x4096, .i32⟩ : BufTy).Contents (Elt Ideal))
    (x4 : (⟨S2048x1, .f32⟩ : BufTy).Contents (Elt Ideal)) (x5 : (⟨S4096, .i32⟩ : BufTy).Contents (Elt Ideal))
    (x6 : (⟨S4096, .f32⟩ : BufTy).Contents (Elt Ideal)) :
    val_main_v18 (F := Ideal) x0 x1 x2 x3 x4 x5 x6
      = G x0 (val_main_v2 (F := Ideal) x1 x2) (val_main_v5 (F := Ideal) x3 x4) (val_main_v14 (F := Ideal) x5) x6 := by
  funext i
  obtain ⟨b, s, c, rfl⟩ : ∃ (b : Fin 8) (s : Fin 2048) (c : Fin 4096), i = ix3 b s c := ⟨i 0, i 1, i 2, eq_ix3 i⟩
  rw [val_main_v18_apply]
  show val_main_v15 (F := Ideal) x0 x1 x2 x3 x4 x5 (ix3 b s c) + val_main_v17 (F := Ideal) x6 (ix3 b s c)
    = out x0 (val_main_v2 (F := Ideal) x1 x2) (val_main_v5 (F := Ideal) x3 x4) (val_main_v14 (F := Ideal) x5) x6 b s c
  rw [bias_apply]
  unfold val_main_v15 out
  rw [gather_last_apply pos4096 gather_S8x2048x4096_S4096x1_S8x2048x4096_01_2_n_n_2_1_820481 rfl rfl rfl rfl rfl rfl rfl,
    joined_apply]

end Cert.RefSpec

end
-- ==== Proof.Finite.lean ====
/-
  The precondition says every float input is finite: |v| < +∞ entry by entry, all entries conjoined. On the extended
  reals |a| = max a (−a) is below +∞ exactly when a is neither infinity, that is, when a is a real number. Only the
  tokens' finiteness is used downstream (a real entry minus itself is zero), so only that conjunct is read out.
-/
import proofs.«122464_j56487409877117_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Idealize.ShloMosaic.ValueIdx Cert.Pre_finite_inputs

instance : Subsingleton S_.Idx := ⟨fun _ _ => funext fun d => d.elim0⟩

/-- The word the precondition compares against is +∞. -/
theorem inf_word : Ideal.ofBits .f32 0x7F800000#32 = (⊤ : EReal) := by
  simp [Ideal.ofBits, Ideal.ieee]

/-- An extended real whose absolute value is below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- Under the precondition every entry of the first argument is a real number. -/
theorem real_of_fn [Facts] (a0 : FVec Ideal S8x2048x4096 .f32) (a1 : IVec S2048x4096 32) (a2 : FVec Ideal S2048x1 .f32)
    (a3 : IVec S2048x4096 32) (a4 : FVec Ideal S2048x1 .f32) (a5 : IVec S4096 32) (a6 : FVec Ideal S4096 .f32)
    (h : fn (F := Ideal) a0 a1 a2 a3 a4 a5 a6 = fun _ => 1#1) (i : S8x2048x4096.Idx) : ∃ r : ℝ, a0 i = (r : EReal) := by
  have h0 := congrFun h ix0
  dsimp only [fn, fn_part1] at h0
  have e1 := (IntOp.andi_eq_one.mp h0).1
  have e2 := (IntOp.andi_eq_one.mp e1).1
  have e3 := (IntOp.andi_eq_one.mp e2).1
  have hx := Host.reduce_andi_all _ _ _ _ ix0 e3 i
  change BitVec.ofBool (decide (max (a0 i) (-(a0 i)) < Ideal.ofBits .f32 0x7F800000#32)) = 1#1 at hx
  rw [inf_word] at hx
  refine real_of_abs_lt_top (a0 i) ?_
  by_contra hn
  rw [decide_eq_false hn] at hx
  exact absurd hx (by decide)

end Cert.Finite

end
-- ==== Proof.lean ====
/-
  A quantised linear layer, y = x · Wᵀ + bias, whose output channels are stored in two formats (2048 rows of W with
  8-bit integers, 2048 with 4-bit ones, each row with its own scale) and then put back in their original order by an
  index vector. The reference multiplies the tokens by each dequantised table, joins the two products along the channel
  axis and takes the channels in the order the indices name. The kernel's program instead stacks the two tables, takes
  the ROWS of the stack in that order, and runs one tiled product with the bias added in the same pass; inside a tile it
  splits each token entry into a 16-bit part and a remainder and adds the two products.

  Over the extended reals the two agree entry by entry: at (b, s, c) both are Σ_k x[b, s, k] · W[r(c), k] + bias[c],
  with W the stacked tables and r(c) the position index c names (read signed, a negative one moved up by 4096, clamped
  into range — one and the same function of the index vector on both sides, never evaluated). Joining before or after
  the product is a matter of which table a row comes from, decided by r(c) alone; no sum is reordered and nothing is
  distributed. The one law that needs the precondition: with exact arithmetic the kernel's remainder is x − x, which is
  0 for a real x but not for an infinity; for finite tokens the second product is a sum of 0 · w = 0.

  The three frames are the generated ones (the reference's from its generated run); the one rewrite of the idealised
  kernel — widening after narrowing is the identity on exact values — is its rule's statement.
-/
import proofs.«122464_j56487409877117_2_alg».proof.Defs
import proofs.«122464_j56487409877117_2_alg».proof.Proof.Gen.Kernel
import proofs.«122464_j56487409877117_2_alg».proof.Proof.Gen.Kernel.Skeleton
import proofs.«122464_j56487409877117_2_alg».proof.Proof.Gen.Kernel.Launch
import proofs.«122464_j56487409877117_2_alg».proof.Proof.Gen.Kernel.Points
import proofs.«122464_j56487409877117_2_alg».proof.Proof.Gen.Kernel.Frame
import proofs.«122464_j56487409877117_2_alg».proof.Proof.Gen.KernelIdeal
import proofs.«122464_j56487409877117_2_alg».proof.Proof.Gen.KernelIdeal.Skeleton
import proofs.«122464_j56487409877117_2_alg».proof.Proof.Gen.KernelIdeal.Launch
import proofs.«122464_j56487409877117_2_alg».proof.Proof.Gen.KernelIdeal.Points
import proofs.«122464_j56487409877117_2_alg».proof.Proof.Gen.KernelIdeal.Frame
import proofs.«122464_j56487409877117_2_alg».proof.Proof.Gen.ReferenceIdeal
import proofs.«122464_j56487409877117_2_alg».proof.Proof.Gen.Pre_finite_inputs
import proofs.«122464_j56487409877117_2_alg».proof.Proof.Gen.ReferenceIdeal.Run
import proofs.«122464_j56487409877117_2_alg».proof.Proof.Gen.ReferenceIdeal.Read
import proofs.«122464_j56487409877117_2_alg».proof.Proof.KernelValue
import proofs.«122464_j56487409877117_2_alg».proof.Proof.RefIsSpec
import proofs.«122464_j56487409877117_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Narrowing a 32-bit value to 16 bits and widening it back is the identity on exact values. -/
theorem preserves : Cert.preserves_Kernel_KernelIdeal :=
  IdealRules.truncf_extf.statement Cert.KernelIdeal.S512x4096 .f32 .bf16

/-- Both programs end with the result at the specification of the (agreeing) arguments: the kernel's by its tiles, the
    reshape and the vanishing remainder product (finite tokens), the reference's by its operations read one at a time. -/
theorem algebraic : Cert.algebraic_KernelIdeal_ReferenceIdeal := by
  intro m ρ m' ρ' hpre hagree
  have hx : ∀ (c : Dev Cert.KernelIdeal.nD) i, ∃ a : ℝ,
      m ((c : Thread Cert.KernelIdeal.nD Cert.KernelIdeal.τ).loc Cert.KernelIdeal.main_arg0) i = (a : EReal) :=
    fun c i => Cert.Finite.real_of_fn _ _ _ _ _ _ _ (hpre c) i
  refine ⟨_, Cert.KernelIdeal.KValue.run m ρ hx, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.RefSpec.ref_eq, (hagree c).1, (hagree c).2.1, (hagree c).2.2.1,
    (hagree c).2.2.2.1, (hagree c).2.2.2.2.1, (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
